-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S64x1024 .f32 .bf16
  ∧ IdealRules.truncf_extf.Statement Cert.KernelIdeal.S64x1024 .f32 .bf16
  ∧ IdealRules.truncf_extf.Statement Cert.KernelIdeal.S64x1024 .f32 .bf16
  ∧ IdealRules.truncf_extf.Statement Cert.KernelIdeal.S64x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x32x32 : Shape := ⟨4, ![32, 512, 32, 32]⟩
abbrev S64x512 : Shape := ⟨2, ![64, 512]⟩
abbrev S_ : Shape := ⟨0, ![]⟩

class Facts : Prop where
  bcast_S_S32x512x32x32 : S_.BroadcastsInDim S32x512x32x32 (![] : Fin 0 → Fin S32x512x32x32.rank)
  reducesTo_S32x512x32x32_S_d0_1_2_3 : S32x512x32x32.ReducesTo [0, 1, 2, 3] S_
  h_S_ : 0 < S_.numel
  bcast_S_S64x512 : S_.BroadcastsInDim S64x512 (![] : Fin 0 → Fin S64x512.rank)
  reducesTo_S64x512_S_d0_1 : S64x512.ReducesTo [0, 1] S_

variable [Facts]

def fn {F : FTy → Type} [FloatOps F] (main_arg0 : FVec F S32x512x32x32 .f32) (main_arg1 : FVec F S64x512 .f32) (main_arg2 : FVec F S64x512 .f32) : IVec S_ 1 :=
  let main_v0 : FVec F S32x512x32x32 .f32 := Host.absf main_arg0
  let main_cst : FVec F S_ .f32 := constant S_ .f32 0x7F800000#32
  let main_v1 : FVec F S32x512x32x32 .f32 := broadcastInDim S32x512x32x32 ![] bcast_S_S32x512x32x32 main_cst
  let main_v2 : IVec S32x512x32x32 1 := cmpf .olt main_v0 main_v1
  let main_c : IVec S_ 1 := constantI S_ 1 1#1
  let main_v3 : IVec S_ 1 := (fun x v => Host.reduce IntOp.andi x v reducesTo_S32x512x32x32_S_d0_1_2_3 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  main_v13
-- ==== Kernel.lean ====
abbrev S32x512x32x32 : Shape := ⟨4, ![32, 512, 32, 32]⟩
abbrev S64x512 : Shape := ⟨2, ![64, 512]⟩
abbrev S32x512x1024 : Shape := ⟨3, ![32, 512, 1024]⟩
abbrev S32x64x512 : Shape := ⟨3, ![32, 64, 512]⟩
abbrev S4x512x1024 : Shape := ⟨3, ![4, 512, 1024]⟩
abbrev S4x64x512 : Shape := ⟨3, ![4, 64, 512]⟩
abbrev S1x512x1024 : Shape := ⟨3, ![1, 512, 1024]⟩
abbrev S512x1024 : Shape := ⟨2, ![512, 1024]⟩
abbrev S64x1024 : Shape := ⟨2, ![64, 1024]⟩
abbrev S1024 : Shape := ⟨1, ![1024]⟩
abbrev S1x1024 : Shape := ⟨2, ![1, 1024]⟩
abbrev S64 : Shape := ⟨1, ![64]⟩
abbrev S64x1 : Shape := ⟨2, ![64, 1]⟩
abbrev S1x64x512 : Shape := ⟨3, ![1, 64, 512]⟩
abbrev S32x32768 : Shape := ⟨2, ![32, 32768]⟩

abbrev nBuf : Space → Nat
  | .hbm => 6
  | .vmem => 6
  | .smem => 0
  | _ => 0

abbrev bufTy : (tb : Table) → Fin (tcTables nBuf tb) → BufTy
  | .hbm, ⟨0, _⟩ => ⟨S32x512x32x32, .f32⟩
  | .hbm, ⟨1, _⟩ => ⟨S64x512, .f32⟩
  | .hbm, ⟨2, _⟩ => ⟨S64x512, .f32⟩
  | .hbm, ⟨3, _⟩ => ⟨S32x512x1024, .f32⟩
  | .hbm, ⟨4, _⟩ => ⟨S32x64x512, .f32⟩
  | .hbm, ⟨5, _⟩ => ⟨S32x32768, .f32⟩
  | .local _ .vmem, ⟨0, _⟩ => ⟨S4x512x1024, .f32⟩
  | .local _ .vmem, ⟨1, _⟩ => ⟨S4x512x1024, .f32⟩
  | .local _ .vmem, ⟨2, _⟩ => ⟨S64x512, .f32⟩
  | .local _ .vmem, ⟨3, _⟩ => ⟨S64x512, .f32⟩
  | .local _ .vmem, ⟨4, _⟩ => ⟨S4x64x512, .f32⟩
  | .local _ .vmem, ⟨5, _⟩ => ⟨S4x64x512, .f32⟩
  | _, _ => ⟨S32x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x512x32x32_S32x512x1024 : S32x512x32x32.ShapeCasts S32x512x1024
  inb_S64x512_S64x512_0_0 : ∀ a, (![0, 0] : Fin 2 → Nat) a + S64x512.size a ≤ S64x512.size a
  h_S64x512 : 0 < S64x512.numel
  bitsLt_bf16_f32 : FTy.bits .bf16 < FTy.bits .f32
  inb_S4x512x1024_S1x512x1024_0_0_0 : ∀ a, (![0, 0, 0] : Fin 3 → Nat) a + S1x512x1024.size a ≤ S4x512x1024.size a
  h_S1x512x1024 : 0 < S1x512x1024.numel
  shapeCasts_S1x512x1024_S512x1024 : S1x512x1024.ShapeCasts S512x1024
  reduces_S64x1024_S1024 : S64x1024.Reduces [0] S1024
  shapeCasts_S1024_S1x1024 : S1024.ShapeCasts S1x1024
  broadcasts_S1x1024_S64x1024 : S1x1024.Broadcasts S64x1024
  reduces_S64x1024_S64 : S64x1024.Reduces [1] S64
  shapeCasts_S64_S64x1 : S64.ShapeCasts S64x1
  broadcasts_S64x1_S64x512 : S64x1.Broadcasts S64x512
  inb_S4x64x512_S1x64x512_0_0_0 : ∀ a, (![0, 0, 0] : Fin 3 → Nat) a + S1x64x512.size a ≤ S4x64x512.size a
  h_S1x64x512 : 0 < S1x64x512.numel
  shapeCasts_S1x64x512_S64x512 : S1x64x512.ShapeCasts S64x512
  shapeCasts_S64x512_S1x64x512 : S64x512.ShapeCasts S1x64x512
  inb_S4x512x1024_S1x512x1024_1_0_0 : ∀ a, (![1, 0, 0] : Fin 3 → Nat) a + S1x512x1024.size a ≤ S4x512x1024.size a
  inb_S4x64x512_S1x64x512_1_0_0 : ∀ a, (![1, 0, 0] : Fin 3 → Nat) a + S1x64x512.size a ≤ S4x64x512.size a
  inb_S4x512x1024_S1x512x1024_2_0_0 : ∀ a, (![2, 0, 0] : Fin 3 → Nat) a + S1x512x1024.size a ≤ S4x512x1024.size a
  inb_S4x64x512_S1x64x512_2_0_0 : ∀ a, (![2, 0, 0] : Fin 3 → Nat) a + S1x64x512.size a ≤ S4x64x512.size a
  inb_S4x512x1024_S1x512x1024_3_0_0 : ∀ a, (![3, 0, 0] : Fin 3 → Nat) a + S1x512x1024.size a ≤ S4x512x1024.size a
  inb_S4x64x512_S1x64x512_3_0_0 : ∀ a, (![3, 0, 0] : Fin 3 → Nat) a + S1x64x512.size a ≤ S4x64x512.size a
  shapeCasts_S32x64x512_S32x32768 : S32x64x512.ShapeCasts S32x32768
  dot_S64x512_S512x1024_S64x1024_1_0_0_1_n_n_wf : DotDims.WF S64x512 S512x1024 S64x1024 [1] [0] [0] [1] [] []
  dot_S64x1024_S512x1024_S64x512_1_1_0_0_n_n_wf : DotDims.WF S64x1024 S512x1024 S64x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x1024.size a ≤ S32x512x1024.size a
  hwx0_0 : ∀ i : grid0.Coords, EltTy.bits .f32 = 32 ∨ (Rect.block (s := S32x512x1024) S4x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x512.size a
  hwx0_2 : ∀ i : grid0.Coords, EltTy.bits .f32 = 32 ∨ (Rect.block (s := S64x512) S64x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x64x512.size a ≤ S32x64x512.size a
  hwx0_3 : ∀ i : grid0.Coords, EltTy.bits .f32 = 32 ∨ (Rect.block (s := S32x64x512) S4x64x512.size (cc0_transform_3 i) (hinb0_3 i)).WholeWords (EltTy.packing .f32)

variable [Facts₀]

def dot_S64x512_S512x1024_S64x1024_1_0_0_1_n_n : DotDims S64x512 S512x1024 S64x1024 where
  lhsContracting := [1]
  rhsContracting := [0]
  lhsNonContracting := [0]
  rhsNonContracting := [1]
  lhsBatch := []
  rhsBatch := []
  wf := dot_S64x512_S512x1024_S64x1024_1_0_0_1_n_n_wf
def dot_S64x1024_S512x1024_S64x512_1_1_0_0_n_n : DotDims S64x1024 S512x1024 S64x512 where
  lhsContracting := [1]
  rhsContracting := [1]
  lhsNonContracting := [0]
  rhsNonContracting := [0]
  lhsBatch := []
  rhsBatch := []
  wf := dot_S64x1024_S512x1024_S64x512_1_1_0_0_n_n_wf

abbrev win0_0 : Pipeline.Window sig grid0 :=
  Pipeline.Window.ofSpec (Memref.whole main_v0) S4x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4x64x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x512x32x32 : Shape := ⟨4, ![32, 512, 32, 32]⟩
abbrev S64x512 : Shape := ⟨2, ![64, 512]⟩
abbrev S32x512x1024 : Shape := ⟨3, ![32, 512, 1024]⟩
abbrev S32x1024x512 : Shape := ⟨3, ![32, 1024, 512]⟩
abbrev S32x1024x64 : Shape := ⟨3, ![32, 1024, 64]⟩
abbrev S_ : Shape := ⟨0, ![]⟩
abbrev S32x1024 : Shape := ⟨2, ![32, 1024]⟩
abbrev S32x1024x1 : Shape := ⟨3, ![32, 1024, 1]⟩
abbrev S32x64x512 : Shape := ⟨3, ![32, 64, 512]⟩
abbrev S32x64 : Shape := ⟨2, ![32, 64]⟩
abbrev S32x64x1 : Shape := ⟨3, ![32, 64, 1]⟩
abbrev S1x64x512 : Shape := ⟨3, ![1, 64, 512]⟩
abbrev S32x32768 : Shape := ⟨2, ![32, 32768]⟩

abbrev nBuf : Space → Nat
  | .hbm => 33
  | .vmem => 0
  | .smem => 0
  | _ => 0

abbrev bufTy : (tb : Table) → Fin (tcTables nBuf tb) → BufTy
  | .hbm, ⟨0, _⟩ => ⟨S32x512x32x32, .f32⟩
  | .hbm, ⟨1, _⟩ => ⟨S64x512, .f32⟩
  | .hbm, ⟨2, _⟩ => ⟨S64x512, .f32⟩
  | .hbm, ⟨3, _⟩ => ⟨S32x512x1024, .f32⟩
  | .hbm, ⟨4, _⟩ => ⟨S32x1024x512, .f32⟩
  | .hbm, ⟨5, _⟩ => ⟨S32x1024x64, .f32⟩
  | .hbm, ⟨6, _⟩ => ⟨S_, .f32⟩
  | .hbm, ⟨7, _⟩ => ⟨S32x1024x64, .f32⟩
  | .hbm, ⟨8, _⟩ => ⟨S32x1024x64, .f32⟩
  | .hbm, ⟨9, _⟩ => ⟨S_, .f32⟩
  | .hbm, ⟨10, _⟩ => ⟨S32x1024, .f32⟩
  | .hbm, ⟨11, _⟩ => ⟨S_, .f32⟩
  | .hbm, ⟨12, _⟩ => ⟨S32x1024, .f32⟩
  | .hbm, ⟨13, _⟩ => ⟨S32x1024, .f32⟩
  | .hbm, ⟨14, _⟩ => ⟨S32x1024x1, .f32⟩
  | .hbm, ⟨15, _⟩ => ⟨S32x1024x64, .f32⟩
  | .hbm, ⟨16, _⟩ => ⟨S32x1024x64, .f32⟩
  | .hbm, ⟨17, _⟩ => ⟨S32x1024x64, .f32⟩
  | .hbm, ⟨18, _⟩ => ⟨S_, .f32⟩
  | .hbm, ⟨19, _⟩ => ⟨S32x1024, .f32⟩
  | .hbm, ⟨20, _⟩ => ⟨S32x1024x1, .f32⟩
  | .hbm, ⟨21, _⟩ => ⟨S32x1024x64, .f32⟩
  | .hbm, ⟨22, _⟩ => ⟨S32x1024x64, .f32⟩
  | .hbm, ⟨23, _⟩ => ⟨S32x64x512, .f32⟩
  | .hbm, ⟨24, _⟩ => ⟨S_, .f32⟩
  | .hbm, ⟨25, _⟩ => ⟨S32x64, .f32⟩
  | .hbm, ⟨26, _⟩ => ⟨S32x64x1, .f32⟩
  | .hbm, ⟨27, _⟩ => ⟨S1x64x512, .f32⟩
  | .hbm, ⟨28, _⟩ => ⟨S32x64x512, .f32⟩
  | .hbm, ⟨29, _⟩ => ⟨S32x64x512, .f32⟩
  | .hbm, ⟨30, _⟩ => ⟨S32x64x512, .f32⟩
  | .hbm, ⟨31, _⟩ => ⟨S32x64x512, .f32⟩
  | .hbm, ⟨32, _⟩ => ⟨S32x32768, .f32⟩
  | _, _ => ⟨S32x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  shapeCasts_S32x512x32x32_S32x512x1024 : S32x512x32x32.ShapeCasts S32x512x1024
  transposes_S32x512x1024_S32x1024x512_0_2_1 : S32x512x1024.Transposes [0, 2, 1] S32x1024x512
  bcast_S_S32x1024x64 : S_.BroadcastsInDim S32x1024x64 (![] : Fin 0 → Fin S32x1024x64.rank)
  reducesTo_S32x1024x64_S32x1024_d2 : S32x1024x64.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x64_0_1_2 : S32x1024x1.BroadcastsInDim S32x1024x64 (![0, 1, 2] : Fin 3 → Fin S32x1024x64.rank)
  reducesTo_S32x1024x64_S32x64_d1 : S32x1024x64.ReducesTo [1] S32x64
  bcast_S32x64_S32x64x1_0_1 : S32x64.BroadcastsInDim S32x64x1 (![0, 1] : Fin 2 → Fin S32x64x1.rank)
  bcast_S64x512_S1x64x512_1_2 : S64x512.BroadcastsInDim S1x64x512 (![1, 2] : Fin 2 → Fin S1x64x512.rank)
  bcast_S32x64x1_S32x64x512_0_1_2 : S32x64x1.BroadcastsInDim S32x64x512 (![0, 1, 2] : Fin 3 → Fin S32x64x512.rank)
  bcast_S1x64x512_S32x64x512_0_1_2 : S1x64x512.BroadcastsInDim S32x64x512 (![0, 1, 2] : Fin 3 → Fin S32x64x512.rank)
  shapeCasts_S32x64x512_S32x32768 : S32x64x512.ShapeCasts S32x32768
  dot_S32x1024x512_S64x512_S32x1024x64_2_1_01_0_n_n_wf : DotDims.WF S32x1024x512 S64x512 S32x1024x64 [2] [1] [0, 1] [0] [] []
  dot_S32x1024x64_S32x1024x512_S32x64x512_1_1_2_2_0_0_wf : DotDims.WF S32x1024x64 S32x1024x512 S32x64x512 [1] [1] [2] [2] [0] [0]

variable [Facts₀]

def dot_S32x1024x512_S64x512_S32x1024x64_2_1_01_0_n_n : DotDims S32x1024x512 S64x512 S32x1024x64 where
  lhsContracting := [2]
  rhsContracting := [1]
  lhsNonContracting := [0, 1]
  rhsNonContracting := [0]
  lhsBatch := []
  rhsBatch := []
  wf := dot_S32x1024x512_S64x512_S32x1024x64_2_1_01_0_n_n_wf
def dot_S32x1024x64_S32x1024x512_S32x64x512_1_1_2_2_0_0 : DotDims S32x1024x64 S32x1024x512 S32x64x512 where
  lhsContracting := [1]
  rhsContracting := [1]
  lhsNonContracting := [2]
  rhsNonContracting := [2]
  lhsBatch := [0]
  rhsBatch := [0]
  wf := dot_S32x1024x64_S32x1024x512_S32x64x512_1_1_2_2_0_0_wf

class Facts : Prop extends Facts₀ where

variable [Facts]
-- ==== Proof.LibSoftmaxShift.lean ====
/-
  The stable softmax on the extended reals, and its invariance under a common real shift.

  For finitely many scores l the weight of entry k is taken as
      exp (l k − max_j l j) / Σ_j exp (l j − max_j l j),
  the maximum running from −∞. Adding one real number e to every score changes nothing: the maximum moves by e too
  (adding a real is monotone and fixes −∞), so every difference l k − max_j l j stays as it was. On the extended reals
  this holds with no finiteness assumption on the scores, because an infinite score or maximum absorbs e on both sides
  of the difference. Generic in the number of scores.
-/
import Idealize.ShloMosaic.PureOps.Ideal
import Idealize.ShloMosaic.PureOps.Ideal.Laws

noncomputable section

open scoped BigOperators

namespace Cert.LibSoftmaxShift

open Idealize.ShloMosaic

/-- The f32 word of −∞ denotes the bottom of the extended reals. -/
theorem ofBits_neg_inf : Ideal.ofBits .f32 0xFF800000#32 = ⊥ := by
  simp [Ideal.ofBits, Ideal.ieee]

/-- The largest of finitely many extended reals, from −∞. -/
def top {K : Nat} (l : Fin K → EReal) : EReal := (Finset.univ : Finset (Fin K)).fold max ⊥ l

/-- The softmax weight of entry k among the scores l, in the stable form. -/
def weight {K : Nat} (l : Fin K → EReal) (k : Fin K) : EReal :=
  Ideal.div (Ideal.exp (l k - top l)) (∑ j : Fin K, Ideal.exp (l j - top l))

/-- A common real shift leaves a difference unchanged, whatever the two extended reals are. -/
theorem shift_sub (a b : EReal) (e : ℝ) : (a + (e : EReal)) - (b + (e : EReal)) = a - b := by
  induction a using EReal.rec with
  | bot =>
    induction b using EReal.rec with
    | bot => simp
    | top => simp
    | coe y => rw [EReal.bot_add, ← EReal.coe_add, EReal.bot_sub, EReal.bot_sub]
  | top =>
    induction b using EReal.rec with
    | bot => simp
    | top => simp
    | coe y => rw [EReal.top_add_coe, ← EReal.coe_add, EReal.top_sub_coe, EReal.top_sub_coe]
  | coe x =>
    induction b using EReal.rec with
    | bot => rw [EReal.bot_add, ← EReal.coe_add, EReal.coe_sub_bot, EReal.coe_sub_bot]
    | top =>
      rw [EReal.top_add_coe, ← EReal.coe_add, sub_eq_add_neg, sub_eq_add_neg, EReal.neg_top, EReal.add_bot,
        EReal.add_bot]
    | coe y =>
      rw [← EReal.coe_add, ← EReal.coe_add, ← EReal.coe_sub, ← EReal.coe_sub]
      exact congrArg _ (by ring)

/-- The maximum of shifted scores is the shifted maximum: adding a real is monotone and fixes −∞. -/
theorem top_shift {K : Nat} (l : Fin K → EReal) (e : ℝ) : top (fun k => l k + (e : EReal)) = top l + (e : EReal) := by
  unfold top
  have h := Finset.fold_hom (op := (max : EReal → EReal → EReal)) (op' := (max : EReal → EReal → EReal))
    (m := fun x : EReal => x + (e : EReal)) (s := (Finset.univ : Finset (Fin K))) (b := (⊥ : EReal)) (f := l)
    (fun x y => Monotone.map_max (f := fun x : EReal => x + (e : EReal)) (fun _ _ hxy => add_le_add hxy le_rfl))
  rw [EReal.bot_add] at h
  exact h

/-- The weights do not see a common real shift of the scores. -/
theorem weight_shift {K : Nat} (l : Fin K → EReal) (e : ℝ) (k : Fin K) :
    weight (fun j => l j + (e : EReal)) k = weight l k := by
  unfold weight
  simp only [top_shift, shift_sub]

end Cert.LibSoftmaxShift

end
-- ==== Proof.SoftAssign.lean ====
/-
  Soft assignment of descriptors to clusters, on the extended reals.

  For one image the descriptors are the columns of a matrix x (D rows, N columns). A cluster k scores descriptor n by
  the inner product l k n = Σ_e w k e · x e n; the scores of one descriptor over the clusters are turned into weights
  a k n by the softmax in its stable form (`LibSoftmaxShift.weight`). The pooled residual of cluster k in coordinate d is
      Σ_n a k n · x d n − (Σ_n a k n) · c k d.
  For 32 images held as one array this is `pooledAll`, the function both programs are shown to compute.
-/
import proofs.«136059_j73589969650042_2_alg».proof.Proof.LibSoftmaxShift
import Idealize.ShloMosaic.PureOps.Ideal
import Idealize.ShloMosaic.PureOps.Ideal.Laws
import Idealize.ShloMosaic.Lib.ValueIdx

noncomputable section

open scoped BigOperators

namespace Cert.SoftAssign

open Idealize.ShloMosaic Idealize.ShloMosaic.ValueIdx Cert.LibSoftmaxShift

/-- The f32 word nearest to 10⁻⁸ denotes a real number (which one is never used): its exponent field is not all ones. -/
theorem ofBits_eps_real : ∃ r : ℝ, Ideal.ofBits .f32 0x322BCC77#32 = (r : EReal) := by
  unfold Ideal.ofBits Ideal.ieee
  dsimp only
  rw [if_neg (by decide)]
  split_ifs <;> exact ⟨_, rfl⟩

/-- The pooled residual of cluster k in coordinate d: the weighted sum of the descriptors' coordinate d less the total
    weight times the centre's coordinate. -/
def residual {K D N : Nat} (w c : Fin K → Fin D → EReal) (x : Fin D → Fin N → EReal) (k : Fin K) (d : Fin D) : EReal :=
  (∑ n : Fin N, weight (fun j => ∑ e : Fin D, w j e * x e n) k * x d n)
    - (∑ n : Fin N, weight (fun j => ∑ e : Fin D, w j e * x e n) k) * c k d

/-- The result for 32 images held as one [32, 512, 1024] array x, with the scores' matrix w and the centres c as [64, 512]
    arrays: entry (b, k, d) is image b's pooled residual of cluster k in coordinate d. -/
def pooledAt (x : (⟨3, ![32, 512, 1024]⟩ : Shape).Idx → EReal) (w c : (⟨2, ![64, 512]⟩ : Shape).Idx → EReal)
    (b : Fin 32) (k : Fin 64) (d : Fin 512) : EReal :=
  residual (fun j e => w (ix2 j e)) (fun j e => c (ix2 j e)) (fun e n => x (ix3 b e n)) k d

/-- The same as one [32, 64, 512] array. -/
def pooledAll (x : (⟨3, ![32, 512, 1024]⟩ : Shape).Idx → EReal) (w c : (⟨2, ![64, 512]⟩ : Shape).Idx → EReal) :
    (⟨3, ![32, 64, 512]⟩ : Shape).Idx → EReal :=
  fun i => pooledAt x w c (i 0) (i 1) (i 2)

end Cert.SoftAssign

end
-- ==== Proof.LibColumnReduce.lean ====
/-
  Reductions over the first axis of a matrix, read at a column.

  Over the extended reals, the maximum over the first axis of an [a, c] matrix at column q, taken from an accumulator
  word, is the fold of max over the a entries (p, q) starting from the word's value; the sum over the first axis, from
  the zero accumulator, is Σ_p of the entries (p, q). Both are generic in the extents.
-/
import Idealize.ShloMosaic.Lib.ValueIdx
import Idealize.ShloMosaic.PureOps.Ideal.Laws

noncomputable section

open scoped BigOperators

namespace Cert.LibColumnReduce

open Idealize.ShloMosaic Idealize.ShloMosaic.ValueIdx

/-- The index of row p above the reduced index of column q is (p, q). -/
theorem lift_col {a c : Nat} (h : (⟨2, ![a, c]⟩ : Shape).Reduces [0] ⟨1, ![c]⟩) (q : Fin c) (p : Fin a) :
    h.lift (ix1 q) p = ix2 p q :=
  funext fun ax => Fin.ext (by
    match ax with
    | ⟨0, _⟩ => rfl
    | ⟨1, _⟩ => rfl)

/-- The maximum over the first axis of [a, c], from the accumulator word, at column q. -/
theorem col_max_apply {a c : Nat} (src : FVec Ideal ⟨2, ![a, c]⟩ .f32) (acc : BitVec 32)
    (h : (⟨2, ![a, c]⟩ : Shape).Reduces [0] ⟨1, ![c]⟩) (hφ : FKind.Formats .f32)
    (hacc : acc = FKind.maximumf.neutral .f32 hφ) (q : Fin c) :
    multiReduction .maximumf [0] ⟨1, ![c]⟩ src acc h hφ hacc (ix1 q)
      = (Finset.univ : Finset (Fin a)).fold max (Ideal.ofBits .f32 acc) (fun p => src (ix2 p q)) := by
  refine (Ideal.multiReduction_maximumf_single src acc h hφ hacc (ix1 q)).trans ?_
  exact congrArg (fun f : Fin a → EReal => (Finset.univ : Finset (Fin a)).fold max (Ideal.ofBits .f32 acc) f)
    (funext fun p => congrArg src (lift_col h q p))

/-- The sum over the first axis of [a, c], from the zero accumulator, at column q. -/
theorem col_sum_apply {a c : Nat} (src : FVec Ideal ⟨2, ![a, c]⟩ .f32)
    (h : (⟨2, ![a, c]⟩ : Shape).Reduces [0] ⟨1, ![c]⟩) (hφ : FKind.Formats .f32)
    (hacc : (0x00000000#32 : BitVec 32) = FKind.add.neutral .f32 hφ) (q : Fin c) :
    multiReduction .add [0] ⟨1, ![c]⟩ src 0x00000000#32 h hφ hacc (ix1 q) = ∑ p : Fin a, src (ix2 p q) := by
  refine (Ideal.multiReduction_add_single src 0x00000000#32 h hφ hacc (ix1 q)).trans ?_
  exact Finset.sum_congr rfl fun p _ => congrArg src (lift_col h q p)

end Cert.LibColumnReduce

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.LibMatmulNT.lean ====
/-
  A matrix product whose right operand is contracted on its last axis, read at an index, over the extended reals.

  For the dimension numbers of an M×K by N×K product (contract the left operand's axis 1 with the right operand's
  axis 1, no batch axes: the product of the left matrix with the transpose of the right one), the product accumulated
  into the zero matrix has, at row `p` and column `q`, the entry  Σ_{k < K} lhs(p, k) · rhs(q, k):  the left index
  keeps the row and takes the contraction coordinate as its column, the right index takes the output's column as
  its row and the contraction coordinate as its column. Generic in M, K, N and in the operands' formats.
-/
import Idealize.ShloMosaic.PureOps.Ideal.Laws
import Idealize.ShloMosaic.Lib.ValueIdx

noncomputable section

open scoped BigOperators

namespace Cert.LibMatmulNT

open Idealize.ShloMosaic Idealize.ShloMosaic.ValueIdx

variable {M K N : Nat}

/-- The left index keeps the output's row. -/
theorem nt_lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton_self _)]
  rfl

/-- The left index's column is the contraction coordinate. -/
theorem nt_lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k

/-- The right index's row is the output's column. -/
theorem nt_rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton_self _)]
  rfl

/-- The right index's column is the contraction coordinate. -/
theorem nt_rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- THE PRODUCT AT AN ENTRY: a matrix product contracting both operands' last axes, accumulated into the zero matrix,
    is at `(p, q)` the sum over the contracted axis of the operands' products. The dimension numbers are passed as any
    record equal to `DotDims.transposedRhs M K N` (a printed record with the same six lists is, by `rfl`). -/
theorem matmul_nt_zero_apply {φ₁ φ₂ : FTy} (D : DotDims ⟨2, ![M, K]⟩ ⟨2, ![N, K]⟩ ⟨2, ![M, N]⟩)
    (hD : D = DotDims.transposedRhs M K N) (prec : Option ContractPrecision)
    (lhs : FVec Ideal ⟨2, ![M, K]⟩ φ₁) (rhs : FVec Ideal ⟨2, ![N, K]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 q k) := by
  subst hD
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact nt_lhs_row _ _
      | ⟨1, _⟩ => exact (nt_lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact nt_rhs_row _ _
      | ⟨1, _⟩ => exact (nt_rhs_col _ _).trans hk)
  rw [el, er]

end Cert.LibMatmulNT

end
-- ==== Proof.LibRows.lean ====
/-
  Layout operations and lane sums read at an index written by coordinates.

  * A three-axis array [a, b, c] taken as the matrix [a·b, c] whose row p·b + k is the array's row (p, k), and back.
  * A matrix [a, c] given a middle unit axis and repeated b times along it: entry (p, k, q) is the matrix's (p, q).
  * A matrix [a, b] given a trailing unit axis and repeated c times along it: entry (p, k, q) is the matrix's (p, k).
  * A vector [a] given a trailing unit axis, and a column [a, 1] repeated c times along it: entry (p, q) is the vector's p.
  * Over the extended reals, a sum over the middle axis of [a, b, c] at (p, q) is Σ_k of the array at (p, k, q), and a sum
    over the last axis of [a, c] at p is Σ_q of the matrix at (p, q); both from the zero accumulator.
  Every statement is generic in the extents; the row number of the flattened matrix is passed with its equation.
-/
import Idealize.ShloMosaic.Lib.Pipeline.Value
import Idealize.ShloMosaic.Lib.ValueIdx
import Idealize.ShloMosaic.PureOps.Ideal.Laws

noncomputable section

open scoped BigOperators

namespace Cert.LibRows

open Idealize.ShloMosaic Idealize.ShloMosaic.ValueIdx

variable {α : Type}

/-- [a, b, c] as the matrix [n, c], n = a·b: the matrix's row r = p·b + k is the array's row (p, k). -/
theorem flatten_rows_apply {a b c n : Nat} (x : (⟨3, ![a, b, c]⟩ : Shape).Idx → α)
    (h : (⟨3, ![a, b, c]⟩ : Shape).ShapeCasts ⟨2, ![n, c]⟩) (p : Fin a) (k : Fin b) (q : Fin c) (r : Fin n)
    (hr : r.val = p.val * b + k.val) :
    shapeCast ⟨2, ![n, c]⟩ x h (ix2 r q) = x (ix3 p k q) :=
  shapeCast_apply x h _ _ (by
    rw [Shape.rowMajor_val_three, Shape.rowMajor_val_two]
    show (p.val * b + k.val) * c + q.val = r.val * c + q.val
    rw [hr])

/-- The matrix [n, c], n = a·b, as [a, b, c]: entry (p, k, q) is the matrix's row r = p·b + k at column q. -/
theorem unflatten_rows_apply {a b c n : Nat} (x : (⟨2, ![n, c]⟩ : Shape).Idx → α)
    (h : (⟨2, ![n, c]⟩ : Shape).ShapeCasts ⟨3, ![a, b, c]⟩) (p : Fin a) (k : Fin b) (q : Fin c) (r : Fin n)
    (hr : r.val = p.val * b + k.val) :
    shapeCast ⟨3, ![a, b, c]⟩ x h (ix3 p k q) = x (ix2 r q) :=
  shapeCast_apply x h _ _ (by
    rw [Shape.rowMajor_val_two, Shape.rowMajor_val_three]
    show r.val * c + q.val = (p.val * b + k.val) * c + q.val
    rw [hr])

/-- [a, c] given a middle unit axis. -/
theorem insert_mid_apply {a c : Nat} (x : (⟨2, ![a, c]⟩ : Shape).Idx → α)
    (h : (⟨2, ![a, c]⟩ : Shape).ShapeCasts ⟨3, ![a, 1, c]⟩) (p : Fin a) (u : Fin 1) (q : Fin c) :
    shapeCast ⟨3, ![a, 1, c]⟩ x h (ix3 p u q) = x (ix2 p q) :=
  shapeCast_apply x h _ _ (by
    have hu : u.val = 0 := by omega
    rw [Shape.rowMajor_val_two, Shape.rowMajor_val_three]
    show p.val * c + q.val = (p.val * 1 + u.val) * c + q.val
    rw [hu, Nat.mul_one, Nat.add_zero])

/-- [a, 1, c] repeated along its middle axis. -/
theorem bcast_mid_apply {a b c : Nat} (x : (⟨3, ![a, 1, c]⟩ : Shape).Idx → α)
    (h : (⟨3, ![a, 1, c]⟩ : Shape).Broadcasts ⟨3, ![a, b, c]⟩) (p : Fin a) (k : Fin b) (q : Fin c) :
    broadcastTo ⟨3, ![a, b, c]⟩ x h (ix3 p k q) = x (ix3 p (0 : Fin 1) q) :=
  broadcastTo_apply x h _ _ (fun ax => match ax with
    | ⟨0, _⟩ => by
        show p.val = if a = 1 then 0 else p.val
        have := p.isLt
        split_ifs <;> omega
    | ⟨1, _⟩ => by show 0 = if (1 : Nat) = 1 then 0 else k.val; rw [if_pos rfl]
    | ⟨2, _⟩ => by
        show q.val = if c = 1 then 0 else q.val
        have := q.isLt
        split_ifs <;> omega)

/-- [a, b] given a trailing unit axis. -/
theorem append_unit_apply {a b : Nat} (x : (⟨2, ![a, b]⟩ : Shape).Idx → α)
    (h : (⟨2, ![a, b]⟩ : Shape).ShapeCasts ⟨3, ![a, b, 1]⟩) (p : Fin a) (k : Fin b) (u : Fin 1) :
    shapeCast ⟨3, ![a, b, 1]⟩ x h (ix3 p k u) = x (ix2 p k) :=
  shapeCast_apply x h _ _ (by
    have hu : u.val = 0 := by omega
    rw [Shape.rowMajor_val_two, Shape.rowMajor_val_three]
    show p.val * b + k.val = (p.val * b + k.val) * 1 + u.val
    rw [hu, Nat.mul_one, Nat.add_zero])

/-- [a, b, 1] repeated along its last axis. -/
theorem bcast_last_apply {a b c : Nat} (x : (⟨3, ![a, b, 1]⟩ : Shape).Idx → α)
    (h : (⟨3, ![a, b, 1]⟩ : Shape).Broadcasts ⟨3, ![a, b, c]⟩) (p : Fin a) (k : Fin b) (q : Fin c) :
    broadcastTo ⟨3, ![a, b, c]⟩ x h (ix3 p k q) = x (ix3 p k (0 : Fin 1)) :=
  broadcastTo_apply x h _ _ (fun ax => match ax with
    | ⟨0, _⟩ => by
        show p.val = if a = 1 then 0 else p.val
        have := p.isLt
        split_ifs <;> omega
    | ⟨1, _⟩ => by
        show k.val = if b = 1 then 0 else k.val
        have := k.isLt
        split_ifs <;> omega
    | ⟨2, _⟩ => by show 0 = if (1 : Nat) = 1 then 0 else q.val; rw [if_pos rfl])

/-- A vector [a] as the column [a, 1]. -/
theorem col_cast_apply {a : Nat} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column [a, 1] repeated along its unit axis. -/
theorem bcast_col_apply {a c : Nat} (x : (⟨2, ![a, 1]⟩ : Shape).Idx → α)
    (h : (⟨2, ![a, 1]⟩ : Shape).Broadcasts ⟨2, ![a, c]⟩) (p : Fin a) (q : Fin c) :
    broadcastTo ⟨2, ![a, c]⟩ x h (ix2 p q) = x (ix2 p (0 : Fin 1)) :=
  broadcastTo_apply x h _ _ (fun ax => match ax with
    | ⟨0, _⟩ => by
        show p.val = if a = 1 then 0 else p.val
        have := p.isLt
        split_ifs <;> omega
    | ⟨1, _⟩ => by show 0 = if (1 : Nat) = 1 then 0 else q.val; rw [if_pos rfl])

/-- The sum over the middle axis of [a, b, c], from the zero accumulator, at (p, q). -/
theorem lane_sum_mid_apply {a b c : Nat} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (p : Fin a) (q : Fin c) :
    multiReduction .add [1] ⟨2, ![a, c]⟩ src 0x00000000#32 h hφ hacc (ix2 p q) = ∑ k : Fin b, src (ix3 p k q) := by
  refine (Ideal.multiReduction_add_single src 0x00000000#32 h hφ hacc (ix2 p q)).trans ?_
  exact Finset.sum_congr rfl fun k _ => congrArg src (funext fun ax => Fin.ext (by
    match ax with
    | ⟨0, _⟩ => rfl
    | ⟨1, _⟩ => rfl
    | ⟨2, _⟩ => rfl))

/-- The sum over the last axis of [a, c], from the zero accumulator, at p. -/
theorem lane_sum_last_apply {a c : Nat} (src : FVec Ideal ⟨2, ![a, c]⟩ .f32)
    (h : (⟨2, ![a, c]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ q : Fin c, src (ix2 p q) := by
  refine (Ideal.multiReduction_add_single src 0x00000000#32 h hφ hacc (ix1 p)).trans ?_
  exact Finset.sum_congr rfl fun q _ => congrArg src (funext fun ax => Fin.ext (by
    match ax with
    | ⟨0, _⟩ => rfl
    | ⟨1, _⟩ => rfl))

end Cert.LibRows

end
-- ==== Proof.ImageValue.lean ====
/-
  What the kernel body computes for one image.

  The body handles four images per grid point, each by the same arithmetic on that image's 512 × 1024 matrix of
  descriptors x, the 64 × 512 score matrix w and the 64 × 512 centres c:
    scores      l k n = Σ_e w k e · x e n                                   (a matrix product into zero)
    weights     a k n = exp (l k n − max_j l j n) / Σ_j exp (l j n − max_j l j n)   (the maximum from −∞, both
                reductions over the first axis, kept as a row and repeated over the 64 rows)
    residual    r k d = Σ_n a k n · x d n − (Σ_n a k n) · c k d             (a product contracting both last axes,
                and a row sum kept as a column and repeated over the 512 columns).
  The three stages are written once below, for any float instance, and each of the four stored values is that one
  function of the image's block (the values differ only in how the printed body shares the casts of w and of x between
  its parts). Read at the extended reals, index by index, the result is `SoftAssign.residual`; changes of float format are
  the identity there.
-/
import proofs.«136059_j73589969650042_2_alg».proof.Proof.Gen.KernelIdeal.Skeleton
import proofs.«136059_j73589969650042_2_alg».proof.Proof.SoftAssign
import proofs.«136059_j73589969650042_2_alg».proof.Proof.LibColumnReduce
import proofs.«136059_j73589969650042_2_alg».proof.Proof.LibMatmulPlain
import proofs.«136059_j73589969650042_2_alg».proof.Proof.LibMatmulNT
import proofs.«136059_j73589969650042_2_alg».proof.Proof.LibRows
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Image

open Idealize.ShloMosaic Idealize.ShloMosaic.ValueIdx Idealize.SL.Sem
open Cert.KernelIdeal Cert.KernelIdeal.Gen

variable {F : FTy → Type} [FloatOps F]

/-- The scores of one image: the score matrix times the descriptors, both cast to bf16, into the zero matrix. -/
def scores (w : Vec F S64x512 .f32) (x : FVec F S512x1024 .f32) : FVec F S64x1024 .f32 :=
  matmul dot_S64x512_S512x1024_S64x1024_1_0_0_1_n_n none (truncf .bf16 w bitsLt_bf16_f32) (truncf .bf16 x bitsLt_bf16_f32)
    (constant S64x1024 .f32 0x00000000#32)

/-- Each score less its column's maximum, exponentiated. -/
def shifted (l : FVec F S64x1024 .f32) : FVec F S64x1024 .f32 :=
  exp (subf l (broadcastTo S64x1024 (shapeCast S1x1024
    (multiReduction .maximumf [0] S1024 l 0xFF800000#32 reduces_S64x1024_S1024 (.inl rfl) rfl)
    shapeCasts_S1024_S1x1024) broadcasts_S1x1024_S64x1024))

/-- The weights: the shifted exponentials over their column sums. -/
def weights (l : FVec F S64x1024 .f32) : FVec F S64x1024 .f32 :=
  divf (shifted l) (broadcastTo S64x1024 (shapeCast S1x1024
    (multiReduction .add [0] S1024 (shifted l) 0x00000000#32 reduces_S64x1024_S1024 (.inl rfl) rfl)
    shapeCasts_S1024_S1x1024) broadcasts_S1x1024_S64x1024)

/-- The pooled residual from the weights, the descriptors and the centres. -/
def pooled (a : FVec F S64x1024 .f32) (x : FVec F S512x1024 .f32) (c : Vec F S64x512 .f32) : FVec F S64x512 .f32 :=
  subf (matmul dot_S64x1024_S512x1024_S64x512_1_1_0_0_n_n none (truncf .bf16 a bitsLt_bf16_f32) (truncf .bf16 x bitsLt_bf16_f32)
      (constant S64x512 .f32 0x00000000#32))
    (mulf (broadcastTo S64x512 (shapeCast S64x1
      (multiReduction .add [1] S64 a 0x00000000#32 reduces_S64x1024_S64 (.inl rfl) rfl)
      shapeCasts_S64_S64x1) broadcasts_S64x1_S64x512) c)

/-- One image's stored value: its block of descriptors as a matrix, the three stages, the result as a one-image block. -/
def image (w c : Vec F S64x512 .f32) (xb : Vec F S1x512x1024 .f32) : FVec F S1x64x512 .f32 :=
  shapeCast S1x64x512
    (pooled (weights (scores w (shapeCast S512x1024 xb shapeCasts_S1x512x1024_S512x1024)))
      (shapeCast S512x1024 xb shapeCasts_S1x512x1024_S512x1024) c)
    shapeCasts_S64x512_S1x64x512

/-! ## Each stored value is that function -/

theorem pay3_eq (w c : Vec F S64x512 .f32) (xb : Vec F S1x512x1024 .f32) : k0_pay3 w c xb = image w c xb := rfl

theorem pay7_eq (w c : Vec F S64x512 .f32) (xb : Vec F S1x512x1024 .f32) :
    k0_pay7 c (k0_pay4 xb) (k0_pay5 w xb) (k0_pay6 w xb) = image w c xb := rfl

theorem pay8_eq (w c : Vec F S64x512 .f32) (xb : Vec F S1x512x1024 .f32) : k0_pay8 (k0_pay2 w) c xb = image w c xb := rfl

theorem pay1_eq (w c : Vec F S64x512 .f32) (xb : Vec F S1x512x1024 .f32) : k0_pay1 (k0_pay2 w) c xb = image w c xb := rfl

/-! ## The stages at an index, over the extended reals -/

/-- A score is the inner product of a row of w with a column of x. -/
theorem scores_apply (w : Vec Ideal S64x512 .f32) (x : FVec Ideal S512x1024 .f32) (k : Fin 64) (n : Fin 1024) :
    scores (F := Ideal) w x (ix2 k n) = ∑ e : Fin 512, w (ix2 k e) * x (ix2 e n) :=
  Cert.LibMatmulPlain.matmul_plain_zero_apply (M := 64) (K := 512) (N := 1024)
    dot_S64x512_S512x1024_S64x1024_1_0_0_1_n_n rfl none _ _ k n

/-- A shifted exponential is exp of the score less the column's maximum from −∞. -/
theorem shifted_apply (l : FVec Ideal S64x1024 .f32) (k : Fin 64) (n : Fin 1024) :
    shifted (F := Ideal) l (ix2 k n) = Ideal.exp (l (ix2 k n) - LibSoftmaxShift.top (fun j : Fin 64 => l (ix2 j n))) := by
  unfold shifted LibSoftmaxShift.top
  show Ideal.exp (l (ix2 k n) - _) = _
  rw [broadcastTo_1b_ab_apply, shapeCast_a_1a_apply]
  refine congrArg (fun z => Ideal.exp (l (ix2 k n) - z)) ?_
  refine (Cert.LibColumnReduce.col_max_apply (a := 64) (c := 1024) l 0xFF800000#32 reduces_S64x1024_S1024
    (.inl rfl) rfl n).trans ?_
  rw [LibSoftmaxShift.ofBits_neg_inf]

/-- A weight is the softmax weight of its column's scores. -/
theorem weights_apply (l : FVec Ideal S64x1024 .f32) (k : Fin 64) (n : Fin 1024) :
    weights (F := Ideal) l (ix2 k n) = LibSoftmaxShift.weight (fun j : Fin 64 => l (ix2 j n)) k := by
  unfold weights LibSoftmaxShift.weight
  show Ideal.div (shifted (F := Ideal) l (ix2 k n)) _ = _
  rw [broadcastTo_1b_ab_apply, shapeCast_a_1a_apply, shifted_apply]
  refine congrArg (Ideal.div _) ?_
  refine (Cert.LibColumnReduce.col_sum_apply (a := 64) (c := 1024) (shifted (F := Ideal) l) reduces_S64x1024_S1024
    (.inl rfl) rfl n).trans ?_
  exact Finset.sum_congr rfl fun j _ => shifted_apply l j n

/-- The pooled residual at (k, d). -/
theorem pooled_apply (a : FVec Ideal S64x1024 .f32) (x : FVec Ideal S512x1024 .f32) (c : Vec Ideal S64x512 .f32)
    (k : Fin 64) (d : Fin 512) :
    pooled (F := Ideal) a x c (ix2 k d)
      = (∑ n : Fin 1024, a (ix2 k n) * x (ix2 d n)) - (∑ n : Fin 1024, a (ix2 k n)) * c (ix2 k d) := by
  unfold pooled
  rw [subf_apply, mulf_apply]
  refine congrArg₂ (· - ·) ?_ (congrArg (· * c (ix2 k d)) ?_)
  · exact Cert.LibMatmulNT.matmul_nt_zero_apply (M := 64) (K := 1024) (N := 512)
      dot_S64x1024_S512x1024_S64x512_1_1_0_0_n_n rfl none _ _ k d
  · rw [Cert.LibRows.bcast_col_apply, Cert.LibRows.col_cast_apply]
    exact Cert.LibRows.lane_sum_last_apply (a := 64) (c := 1024) a reduces_S64x1024_S64 (.inl rfl) rfl k

/-- One image's stored value at (k, d) is the pooled residual of the image's descriptors. -/
theorem image_apply (w c : Vec Ideal S64x512 .f32) (xb : Vec Ideal S1x512x1024 .f32) (u : Fin 1) (k : Fin 64) (d : Fin 512) :
    image (F := Ideal) w c xb (ix3 u k d)
      = SoftAssign.residual (fun j e => w (ix2 j e)) (fun j e => c (ix2 j e)) (fun e n => xb (ix3 (0 : Fin 1) e n)) k d := by
  unfold image SoftAssign.residual
  rw [shapeCast_ab_1ab_apply, pooled_apply]
  simp only [weights_apply, scores_apply, shapeCast_1ab_ab_apply]

end Cert.KernelIdeal.Image

end
-- ==== Proof.KernelValue.lean ====
/-
  What the kernel's run leaves in its result.

  A grid point t handles the four images 4t, …, 4t + 3: it finds their descriptors as one [4, 512, 1024] block, the
  score matrix and the centres as whole [64, 512] blocks, and stores image i's residual through the rectangle of rows i
  of its [4, 64, 512] output block. So the block it writes back is, entry (i, k, d), the pooled residual of image
  4t + i; the eight blocks tile the [32, 64, 512] result, which therefore ends as `SoftAssign.pooledAll` of the arrays the
  region finds: the input reshaped to [32, 512, 1024] by the host line before the call, and the two [64, 512] arguments.
  The host line after the call reshapes that array to [32, 32768].
-/
import proofs.«136059_j73589969650042_2_alg».proof.Proof.Gen.KernelIdeal.Frame
import proofs.«136059_j73589969650042_2_alg».proof.Proof.ImageValue
import Idealize.ShloMosaic.Lib.Pipeline.Value
import Idealize.ShloMosaic.Lib.StableHlo.Run
import Idealize.ShloMosaic.Lib.ValueIdx

set_option maxRecDepth 16384

noncomputable section

open scoped BigOperators

namespace Cert.KernelIdeal.Pooled

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## One output block as a function of the input blocks -/

theorem zeros2 : (![0, 0] : Fin 2 → Nat) = fun _ => 0 := funext fun a => by fin_cases a <;> rfl

/-- The output block of a point: entry (i, k, d) is the pooled residual of the i-th image of the input block. -/
def blockFn (x0 : Vec Ideal S4x512x1024 .f32) (x1 x2 : Vec Ideal S64x512 .f32) : S4x64x512.Idx → EReal := fun y =>
  SoftAssign.residual (fun j e => x1 (ix2 j e)) (fun j e => x2 (ix2 j e)) (fun e n => x0 (ix3 (y 0) e n)) (y 1) (y 2)

/-- The value stored for image i, which is computed from rows i of the input block and stored through rows i of the
    output block, agrees there with `blockFn`. -/
theorem stored_image (x0 : Vec Ideal S4x512x1024 .f32) (x1 x2 : Vec Ideal S64x512 .f32) (i : Fin 4)
    (inbL : ∀ a, (![i.val, 0, 0] : Fin 3 → Nat) a + S1x512x1024.size a ≤ S4x512x1024.size a)
    (inbS : ∀ a, (![i.val, 0, 0] : Fin 3 → Nat) a + S1x64x512.size a ≤ S4x64x512.size a)
    (x : S1x64x512.Idx) :
    Image.image (F := Ideal) (View.ld x1 r0_0) (View.ld x2 r0_0)
        (View.ld x0 (Rect.unit (s := S4x512x1024) ![i.val, 0, 0] S1x512x1024.size inbL)) x
      = blockFn x0 x1 x2 ((Rect.unit (s := S4x64x512) ![i.val, 0, 0] S1x64x512.size inbS).emb x) := by
  obtain ⟨u, k, d, rfl⟩ : ∃ (u : Fin 1) (k : Fin 64) (d : Fin 512), x = ix3 u k d := ⟨x 0, x 1, x 2, eq_ix3 x⟩
  refine (Image.image_apply _ _ _ u k d).trans ?_
  rw [View.ld_unit_zero (S := S64x512) zeros2 _ x1, View.ld_unit_zero (S := S64x512) zeros2 _ x2]
  have hS : (Rect.unit (s := S4x64x512) ![i.val, 0, 0] S1x64x512.size inbS).emb (ix3 u k d) = ix3 i k d :=
    funext fun a => Fin.ext (by
      have hu : u.val = 0 := by omega
      match a with
      | ⟨0, _⟩ => show i.val + 1 * u.val = i.val; omega
      | ⟨1, _⟩ => show 0 + 1 * k.val = k.val; omega
      | ⟨2, _⟩ => show 0 + 1 * d.val = d.val; omega)
  have hL : ∀ (e : Fin 512) (n : Fin 1024),
      View.ld x0 (Rect.unit (s := S4x512x1024) ![i.val, 0, 0] S1x512x1024.size inbL) (ix3 (0 : Fin 1) e n) = x0 (ix3 i e n) :=
    fun e n => congrArg x0 (funext fun a => Fin.ext (by
      match a with
      | ⟨0, _⟩ => show i.val + 1 * 0 = i.val; omega
      | ⟨1, _⟩ => show 0 + 1 * e.val = e.val; omega
      | ⟨2, _⟩ => show 0 + 1 * n.val = n.val; omega))
  rw [hS]
  simp only [hL]
  rfl

/-- The four stores leave `blockFn` of the input blocks: each store's value agrees with it on its rectangle, and the
    rectangles tile the block. -/
theorem block_apply (x0 : Vec Ideal S4x512x1024 .f32) (x1 x2 : Vec Ideal S64x512 .f32) (y : S4x64x512.Idx) :
    out0_3 (F := Ideal) x0 x1 x2 y = blockFn x0 x1 x2 y := by
  unfold out0_3
  refine View.canon_apply_of_pieces (Val := Elt Ideal) (blockFn x0 x1 x2) _ ?_ y (cover0_3 _ _ _ _ y)
  intro p hp x
  simp only [List.mem_cons, List.mem_nil_iff, or_false] at hp
  rcases hp with rfl | rfl | rfl | rfl
  · exact (congrFun (Image.pay1_eq _ _ _) x).trans (stored_image x0 x1 x2 (3 : Fin 4)
      inb_S4x512x1024_S1x512x1024_3_0_0 inb_S4x64x512_S1x64x512_3_0_0 x)
  · exact (congrFun (Image.pay8_eq _ _ _) x).trans (stored_image x0 x1 x2 (2 : Fin 4)
      inb_S4x512x1024_S1x512x1024_2_0_0 inb_S4x64x512_S1x64x512_2_0_0 x)
  · exact (congrFun (Image.pay7_eq _ _ _) x).trans (stored_image x0 x1 x2 (1 : Fin 4)
      inb_S4x512x1024_S1x512x1024_1_0_0 inb_S4x64x512_S1x64x512_1_0_0 x)
  · exact (congrFun (Image.pay3_eq _ _ _) x).trans (stored_image x0 x1 x2 (0 : Fin 4)
      inb_S4x512x1024_S1x512x1024_0_0_0 inb_S4x64x512_S1x64x512_0_0_0 x)

/-! ## From the blocks to the array -/

/-- The printed index maps over the grid: the descriptors' and the result's blocks move with the point along the first
    axis, the two matrices' blocks never move. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- What point t writes back is block t of the whole result. -/
theorem flushed_eq (c : Dev nD) (t : Fin cfg0.N) :
    (dats m 0 c).flushed 3 t = ((cfg0.win 3).blk t).view.read (Elt Ideal)
      (SoftAssign.pooledAll (V m c main_v0) (V m c main_arg1) (V m c main_arg2)) := by
  show (cfg0.win 3).cut (grid0.coords t) ((dats m 0 c).after 3 t) = _
  rw [after0_3]
  obtain ⟨a0, a1, a2, b0, b1, c0, c1, o0, o1, o2⟩ := idx_facts t
  have ht : t.val < 8 := lt_of_lt_of_eq t.isLt N_0
  funext y
  show out0_3 (iblk m c 0 t) (iblk m c 1 t) (iblk m c 2 t) y
    = SoftAssign.pooledAll (V m c main_v0) (V m c main_arg1) (V m c main_arg2) (((cfg0.win 3).blk t).view.emb y)
  refine (block_apply (iblk m c 0 t) (iblk m c 1 t) (iblk m c 2 t) y).trans ?_
  obtain ⟨i, k, d, rfl⟩ : ∃ (i : Fin 4) (k : Fin 64) (d : Fin 512), y = ix3 i k d := ⟨y 0, y 1, y 2, eq_ix3 y⟩
  have hE : ((cfg0.win 3).blk t).view.emb (ix3 i k d) = ix3 (⟨t.val * 4 + i.val, by omega⟩ : Fin 32) k d :=
    funext fun a => Fin.ext (by
      match a with
      | ⟨0, _⟩ => show win0_3.index t (0 : Fin 3) * 4 + 1 * i.val = t.val * 4 + i.val; omega
      | ⟨1, _⟩ => show win0_3.index t (1 : Fin 3) * 64 + 1 * k.val = k.val; omega
      | ⟨2, _⟩ => show win0_3.index t (2 : Fin 3) * 512 + 1 * d.val = d.val; omega)
  have h1 : ∀ (j : Fin 64) (e : Fin 512), iblk m c 1 t (ix2 j e) = V m c main_arg1 (ix2 j e) := fun j e => by
    show V m c main_arg1 (((cfg0.win 1).blk t).view.emb (ix2 j e)) = V m c main_arg1 (ix2 j e)
    exact congrArg (V m c main_arg1) (funext fun a => Fin.ext (by
      match a with
      | ⟨0, _⟩ => show win0_1.index t (0 : Fin 2) * 64 + 1 * j.val = j.val; omega
      | ⟨1, _⟩ => show win0_1.index t (1 : Fin 2) * 512 + 1 * e.val = e.val; omega))
  have h2 : ∀ (j : Fin 64) (e : Fin 512), iblk m c 2 t (ix2 j e) = V m c main_arg2 (ix2 j e) := fun j e => by
    show V m c main_arg2 (((cfg0.win 2).blk t).view.emb (ix2 j e)) = V m c main_arg2 (ix2 j e)
    exact congrArg (V m c main_arg2) (funext fun a => Fin.ext (by
      match a with
      | ⟨0, _⟩ => show win0_2.index t (0 : Fin 2) * 64 + 1 * j.val = j.val; omega
      | ⟨1, _⟩ => show win0_2.index t (1 : Fin 2) * 512 + 1 * e.val = e.val; omega))
  have h0 : ∀ (e : Fin 512) (n : Fin 1024),
      iblk m c 0 t (ix3 i e n) = V m c main_v0 (ix3 (⟨t.val * 4 + i.val, by omega⟩ : Fin 32) e n) := fun e n => by
    show V m c main_v0 (((cfg0.win 0).blk t).view.emb (ix3 i e n)) = V m c main_v0 (ix3 (⟨t.val * 4 + i.val, by omega⟩ : Fin 32) e n)
    exact congrArg (V m c main_v0) (funext fun a => Fin.ext (by
      match a with
      | ⟨0, _⟩ => show win0_0.index t (0 : Fin 3) * 4 + 1 * i.val = t.val * 4 + i.val; omega
      | ⟨1, _⟩ => show win0_0.index t (1 : Fin 3) * 512 + 1 * e.val = e.val; omega
      | ⟨2, _⟩ => show win0_0.index t (2 : Fin 3) * 1024 + 1 * n.val = n.val; omega))
  rw [hE]
  show SoftAssign.residual (fun j e => iblk m c 1 t (ix2 j e)) (fun j e => iblk m c 2 t (ix2 j e))
      (fun e n => iblk m c 0 t (ix3 i e n)) k d
    = SoftAssign.residual (fun j e => V m c main_arg1 (ix2 j e)) (fun j e => V m c main_arg2 (ix2 j e))
      (fun e n => V m c main_v0 (ix3 (⟨t.val * 4 + i.val, by omega⟩ : Fin 32) e n)) k d
  simp only [h0, h1, h2]

/-- An index of the result is in point t's block iff each coordinate is in the block's range on its axis. -/
theorem mem_blk (t : Fin cfg0.N) (i : S32x64x512.Idx) :
    i ∈ ((cfg0.win 3).blk t).view.set ↔ ∀ a : Fin 3, win0_3.index t a * S4x64x512.size a ≤ (i a).val
      ∧ (i a).val < win0_3.index t a * S4x64x512.size a + S4x64x512.size a := by
  show i ∈ ((View.whole main_v1).slice (win0_3.rect t)).set ↔ _
  rw [View.set_slice_whole, Rect.mem_set_unit]
  exact Iff.rfl

/-- Image b's rows lie in the block of point b / 4: the blocks cover the result. -/
theorem cover (i : S32x64x512.Idx) :
    ∃ t : Fin cfg0.N, (cfg0.win 3).flush t = true ∧ i ∈ ((cfg0.win 3).blk t).view.set := by
  have h0 : (i 0).val < 32 := (i 0).isLt
  have h1 : (i 1).val < 64 := (i 1).isLt
  have h2 : (i 2).val < 512 := (i 2).isLt
  have hN := N_0
  refine ⟨⟨(i 0).val / 4, by show (i 0).val / 4 < grid0.N; omega⟩, flush0_3 _, ?_⟩
  rw [mem_blk]
  obtain ⟨a0, a1, a2, b0, b1, c0, c1, o0, o1, o2⟩ := idx_facts ⟨(i 0).val / 4, by show (i 0).val / 4 < grid0.N; omega⟩
  intro a
  match a with
  | ⟨0, _⟩ =>
    show win0_3.index _ (0 : Fin 3) * 4 ≤ (i 0).val ∧ (i 0).val < win0_3.index _ (0 : Fin 3) * 4 + 4
    rw [o0]; show (i 0).val / 4 * 4 ≤ (i 0).val ∧ (i 0).val < (i 0).val / 4 * 4 + 4; omega
  | ⟨1, _⟩ =>
    show win0_3.index _ (1 : Fin 3) * 64 ≤ (i 1).val ∧ (i 1).val < win0_3.index _ (1 : Fin 3) * 64 + 64
    rw [o1]; omega
  | ⟨2, _⟩ =>
    show win0_3.index _ (2 : Fin 3) * 512 ≤ (i 2).val ∧ (i 2).val < win0_3.index _ (2 : Fin 3) * 512 + 512
    rw [o2]; omega

/-- The result array after the region. -/
theorem final (c : Dev nD) :
    (dats m 0 c).arrAt 3 cfg0.N = SoftAssign.pooledAll (V m c main_v0) (V m c main_arg1) (V m c main_arg2) :=
  (dats m 0 c).arrAt_eq_of_cover 3 _ (fun t _ => flushed_eq m c t) cover

/-- The descriptors' array as the region finds it: the input reshaped by the host line before the call. -/
theorem entry_v0 (c : Dev nD) :
    (V m c main_v0 : S32x512x1024.Idx → EReal)
      = shapeCast S32x512x1024 (m ((c : Thread nD τ).loc main_arg0)) shapeCasts_S32x512x32x32_S32x512x1024 := by
  show StableHlo.after hostOps0 (fun b => m (c, b)) (Proc.devRef .tc main_v0) = _
  after_results
  rfl

/-! ## The run -/

/-- What @main's result buffer holds after the host line that follows the call. -/
def result (c : Dev nD) : S32x32768.Idx → EReal :=
  shapeCast S32x32768
    (SoftAssign.pooledAll
      (shapeCast S32x512x1024 (m ((c : Thread nD τ).loc main_arg0)) shapeCasts_S32x512x32x32_S32x512x1024)
      (m ((c : Thread nD τ).loc main_arg1)) (m ((c : Thread nD τ).loc main_arg2)))
    shapeCasts_S32x64x512_S32x32768

/-- The tail's result: the reshape of the region's result array. -/
theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  unfold result
  refine congrArg (fun y => shapeCast S32x32768 y shapeCasts_S32x64x512_S32x32768) ?_
  refine (Pipeline.withArrays_arr spec0 launch0.win.arr_inj c _ _ 3).trans ?_
  rw [final, entry_v0, V_main_arg1, V_main_arg2]

/-- Every weakly fair execution of the kernel's @main terminates with the result buffer at `result` and the arguments
    unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Pooled

end
-- ==== Proof.RefValue.lean ====
/-
  What the reference computes, read at an index.

  The reference lays the input out as descriptors d[b, n, ·] = x[b, ·, n], scores them against the clusters,
      s[b, n, k] = Σ_e x[b, e, n] · w[k, e] + ε,
  takes the softmax over k in its stable form (the maximum from −∞), and pools
      r[b, k, d] = Σ_n a[b, n, k] · x[b, d, n] − (0 + Σ_n a[b, n, k]) · c[k, d].
  Each stage below is read at explicit coordinates over the extended reals. The common shift ε of a descriptor's scores
  leaves its weights unchanged (`LibSoftmaxShift.weight_shift`; ε's word denotes a real), and a product of extended reals
  commutes, so r[b, k, d] is `SoftAssign.residual` of image b's descriptors. The input's reshape to [32, 512, 1024] is
  kept as it stands: both programs start with it.
-/
import proofs.«136059_j73589969650042_2_alg».proof.Proof.Gen.ReferenceIdeal.Read
import proofs.«136059_j73589969650042_2_alg».proof.Proof.SoftAssign
import Idealize.ShloMosaic.Lib.ValueIdx
import Idealize.ShloMosaic.Lib.Pipeline.Value
import Idealize.ShloMosaic.PureOps.Ideal.Laws

noncomputable section

open scoped BigOperators

namespace Cert.ReferenceIdeal.Pooled

open Idealize.ShloMosaic Idealize.ShloMosaic.ValueIdx Idealize.SL.Sem
open Cert.ReferenceIdeal Cert.ReferenceIdeal.Gen Cert.ReferenceIdeal.Read

variable (x0 : (⟨S32x512x32x32, .f32⟩ : BufTy).Contents (Elt Ideal)) (x1 x2 : (⟨S64x512, .f32⟩ : BufTy).Contents (Elt Ideal))

/-! ## The index maps at explicit coordinates -/

theorem lidx16 (b : Fin 32) (k : Fin 64) (d : Fin 512) (n : Fin 1024) : lidx_main_v16 (ix3 b k d) n = ix3 b n k :=
  funext fun a => Fin.ext (by match a with | ⟨0, _⟩ => rfl | ⟨1, _⟩ => rfl | ⟨2, _⟩ => rfl)
theorem ridx16 (b : Fin 32) (k : Fin 64) (d : Fin 512) (n : Fin 1024) : ridx_main_v16 (ix3 b k d) n = ix3 b n d :=
  funext fun a => Fin.ext (by match a with | ⟨0, _⟩ => rfl | ⟨1, _⟩ => rfl | ⟨2, _⟩ => rfl)
theorem idx1 (b : Fin 32) (n : Fin 1024) (d : Fin 512) : idx_main_v1 (ix3 b n d) = ix3 b d n :=
  funext fun a => Fin.ext (by match a with | ⟨0, _⟩ => rfl | ⟨1, _⟩ => rfl | ⟨2, _⟩ => rfl)
theorem lidx2 (b : Fin 32) (n : Fin 1024) (k : Fin 64) (e : Fin 512) : lidx_main_v2 (ix3 b n k) e = ix3 b n e :=
  funext fun a => Fin.ext (by match a with | ⟨0, _⟩ => rfl | ⟨1, _⟩ => rfl | ⟨2, _⟩ => rfl)
theorem ridx2 (b : Fin 32) (n : Fin 1024) (k : Fin 64) (e : Fin 512) : ridx_main_v2 (ix3 b n k) e = ix2 k e :=
  funext fun a => Fin.ext (by match a with | ⟨0, _⟩ => rfl | ⟨1, _⟩ => rfl)
theorem idx9 (b : Fin 32) (n : Fin 1024) (k : Fin 64) : idx_main_v9 (ix3 b n k) = ix3 b n (0 : Fin 1) :=
  funext fun a => Fin.ext (by match a with | ⟨0, _⟩ => rfl | ⟨1, _⟩ => rfl | ⟨2, _⟩ => rfl)
theorem idx8 (b : Fin 32) (n : Fin 1024) (u : Fin 1) : idx_main_v8 (ix3 b n u) = ix2 b n :=
  funext fun a => Fin.ext (by match a with | ⟨0, _⟩ => rfl | ⟨1, _⟩ => rfl)
theorem idx14 (b : Fin 32) (n : Fin 1024) (k : Fin 64) : idx_main_v14 (ix3 b n k) = ix3 b n (0 : Fin 1) :=
  funext fun a => Fin.ext (by match a with | ⟨0, _⟩ => rfl | ⟨1, _⟩ => rfl | ⟨2, _⟩ => rfl)
theorem idx13 (b : Fin 32) (n : Fin 1024) (u : Fin 1) : idx_main_v13 (ix3 b n u) = ix2 b n :=
  funext fun a => Fin.ext (by match a with | ⟨0, _⟩ => rfl | ⟨1, _⟩ => rfl)
theorem idx12 (b : Fin 32) (n : Fin 1024) (k : Fin 64) : idx_main_v12 (ix2 b n) k = ix3 b n k :=
  funext fun a => Fin.ext (by match a with | ⟨0, _⟩ => rfl | ⟨1, _⟩ => rfl | ⟨2, _⟩ => rfl)
theorem idx17 (b : Fin 32) (k : Fin 64) (n : Fin 1024) : idx_main_v17 (ix2 b k) n = ix3 b n k :=
  funext fun a => Fin.ext (by match a with | ⟨0, _⟩ => rfl | ⟨1, _⟩ => rfl | ⟨2, _⟩ => rfl)
theorem idx18 (b : Fin 32) (k : Fin 64) (u : Fin 1) : idx_main_v18 (ix3 b k u) = ix2 b k :=
  funext fun a => Fin.ext (by match a with | ⟨0, _⟩ => rfl | ⟨1, _⟩ => rfl)
theorem idx20 (b : Fin 32) (k : Fin 64) (d : Fin 512) : idx_main_v20 (ix3 b k d) = ix3 b k (0 : Fin 1) :=
  funext fun a => Fin.ext (by match a with | ⟨0, _⟩ => rfl | ⟨1, _⟩ => rfl | ⟨2, _⟩ => rfl)
theorem idx21 (b : Fin 32) (k : Fin 64) (d : Fin 512) : idx_main_v21 (ix3 b k d) = ix3 (0 : Fin 1) k d :=
  funext fun a => Fin.ext (by match a with | ⟨0, _⟩ => rfl | ⟨1, _⟩ => rfl | ⟨2, _⟩ => rfl)
theorem idx19 (u : Fin 1) (k : Fin 64) (d : Fin 512) : idx_main_v19 (ix3 u k d) = ix2 k d :=
  funext fun a => Fin.ext (by match a with | ⟨0, _⟩ => rfl | ⟨1, _⟩ => rfl)

/-! ## The stages -/

/-- The score before the shift: the inner product of image b's descriptor n with cluster k's row. -/
theorem score_apply (b : Fin 32) (n : Fin 1024) (k : Fin 64) :
    val_main_v2 (F := Ideal) x0 x1 (ix3 b n k) = ∑ e : Fin 512, x1 (ix2 k e) * val_main_v0 (F := Ideal) x0 (ix3 b e n) := by
  rw [val_main_v2_apply]
  refine Finset.sum_congr rfl fun e _ => ?_
  rw [val_main_v1_apply, lidx2, ridx2, idx1, mul_comm]

/-- The shifted score. -/
theorem shifted_score_apply (b : Fin 32) (n : Fin 1024) (k : Fin 64) :
    val_main_v4 (F := Ideal) x0 x1 (ix3 b n k)
      = (∑ e : Fin 512, x1 (ix2 k e) * val_main_v0 (F := Ideal) x0 (ix3 b e n)) + Ideal.ofBits .f32 0x322BCC77#32 := by
  rw [val_main_v4_apply, score_apply, val_main_v3_apply, val_main_cst_apply]
  rfl

/-- The largest shifted score of a descriptor, from −∞. -/
theorem top_apply (b : Fin 32) (n : Fin 1024) :
    val_main_v7 (F := Ideal) x0 x1 (ix2 b n) = LibSoftmaxShift.top (fun j : Fin 64 => val_main_v4 (F := Ideal) x0 x1 (ix3 b n j)) := by
  have h : S32x1024x64.Reduces [2] S32x1024 := by decide
  rw [val_main_v7_apply, val_main_v6_apply, val_main_cst_1_apply]
  unfold val_main_v5 LibSoftmaxShift.top
  rw [Host.reduce_eq_fold_single FloatOps.maximumf _ _ reducesTo_S32x1024x64_S32x1024_d2 h h_S_ (ix2 b n), val_main_cst_0_apply]
  show max (Ideal.ofBits .f32 0xFF800000#32) ((Finset.univ : Finset (Fin 64)).fold max (Ideal.ofBits .f32 0xFF800000#32) _) = _
  rw [LibSoftmaxShift.ofBits_neg_inf, max_eq_right bot_le]
  exact congrArg (fun f : Fin 64 → EReal => (Finset.univ : Finset (Fin 64)).fold max ⊥ f)
    (funext fun j => congrArg (val_main_v4 (F := Ideal) x0 x1) (funext fun a => Fin.ext (by
      match a with | ⟨0, _⟩ => rfl | ⟨1, _⟩ => rfl | ⟨2, _⟩ => rfl)))

/-- The exponential of a shifted score less the descriptor's largest. -/
theorem exp_apply (b : Fin 32) (n : Fin 1024) (k : Fin 64) :
    val_main_v11 (F := Ideal) x0 x1 (ix3 b n k)
      = Ideal.exp (val_main_v4 (F := Ideal) x0 x1 (ix3 b n k)
          - LibSoftmaxShift.top (fun j : Fin 64 => val_main_v4 (F := Ideal) x0 x1 (ix3 b n j))) := by
  rw [val_main_v11_apply, val_main_v10_apply, val_main_v9_apply, idx9, val_main_v8_apply, idx8, top_apply]
  rfl

/-- The weight of cluster k for descriptor n of image b: the softmax weight of the UNSHIFTED scores. -/
theorem weight_apply (b : Fin 32) (n : Fin 1024) (k : Fin 64) :
    val_main_v15 (F := Ideal) x0 x1 (ix3 b n k)
      = LibSoftmaxShift.weight (fun j : Fin 64 => ∑ e : Fin 512, x1 (ix2 j e) * val_main_v0 (F := Ideal) x0 (ix3 b e n)) k := by
  obtain ⟨ε, hε⟩ := SoftAssign.ofBits_eps_real
  rw [← LibSoftmaxShift.weight_shift _ ε k, ← hε]
  rw [val_main_v15_apply, val_main_v14_apply, idx14, val_main_v13_apply, idx13, val_main_v12_apply, val_main_cst_2_apply]
  unfold LibSoftmaxShift.weight
  simp only [idx12, exp_apply, shifted_score_apply]
  show Ideal.div _ (Ideal.ofBits .f32 0x00000000#32 + _) = _
  rw [Ideal.ofBits_zero_f32, zero_add]

/-- The pooled residual of image b, cluster k, coordinate d. -/
theorem residual_apply (b : Fin 32) (k : Fin 64) (d : Fin 512) :
    val_main_v23 (F := Ideal) x0 x1 x2 (ix3 b k d)
      = SoftAssign.residual (fun j e => x1 (ix2 j e)) (fun j e => x2 (ix2 j e))
          (fun e n => val_main_v0 (F := Ideal) x0 (ix3 b e n)) k d := by
  rw [val_main_v23_apply, val_main_v16_apply, val_main_v22_apply, val_main_v20_apply, idx20, val_main_v18_apply, idx18,
    val_main_v17_apply, val_main_cst_3_apply, val_main_v21_apply, idx21, val_main_v19_apply, idx19]
  unfold SoftAssign.residual
  simp only [lidx16, ridx16, idx17, val_main_v1_apply, idx1, weight_apply]
  show _ - (Ideal.ofBits .f32 0x00000000#32 + _) * _ = _
  rw [Ideal.ofBits_zero_f32, zero_add]

/-- The reference's result: the [32, 64, 512] array of pooled residuals, reshaped to [32, 32768]. -/
theorem result_eq :
    val_main_v24 (F := Ideal) x0 x1 x2
      = shapeCast S32x32768 (SoftAssign.pooledAll (val_main_v0 (F := Ideal) x0) x1 x2) shapeCasts_S32x64x512_S32x32768 := by
  unfold val_main_v24
  refine congrArg (fun y => shapeCast S32x32768 y shapeCasts_S32x64x512_S32x32768) ?_
  funext i
  obtain ⟨b, k, d, rfl⟩ : ∃ (b : Fin 32) (k : Fin 64) (d : Fin 512), i = ix3 b k d := ⟨i 0, i 1, i 2, eq_ix3 i⟩
  exact residual_apply x0 x1 x2 b k d

end Cert.ReferenceIdeal.Pooled

end
-- ==== Proof.lean ====
/-
  NetVLAD pooling: the kernel against its reference, over the extended reals.

  Both programs reshape the input x[32, 512, 32, 32] to X[32, 512, 1024] (image, coordinate, descriptor) and end by
  reshaping a [32, 64, 512] array to [32, 32768]. In between, for image b, cluster k, coordinate d, each computes
      Σ_n a[b, k, n] · X[b, d, n] − (Σ_n a[b, k, n]) · c[k, d],
  a[b, ·, n] the softmax over the clusters of the scores Σ_e w[k, e] · X[b, e, n], taken in the stable form with the
  maximum from −∞ (`SoftAssign.pooledAll`).
  * The kernel does it four images per grid point, with two matrix products per image; its casts to bf16 and back are
    the identity on the extended reals (Proof/ImageValue.lean, Proof/KernelValue.lean).
  * The reference adds ε = f32(10⁻⁸) to every score before the softmax. A common real shift of one descriptor's scores
    moves their maximum by the same amount and so leaves every weight as it was, on all extended reals: no finiteness
    of the inputs is needed, and the precondition is not opened (Proof/LibSoftmaxShift.lean `weight_shift`, Proof/RefValue.lean).
  The three frames are the generated ones (the reference's is its generated run with the result dropped); the four
  ledger entries are the bf16 round trip of the weights, once per image of a grid point.
-/
import proofs.«136059_j73589969650042_2_alg».proof.Defs
import proofs.«136059_j73589969650042_2_alg».proof.Proof.Gen.Kernel
import proofs.«136059_j73589969650042_2_alg».proof.Proof.Gen.Kernel.Skeleton
import proofs.«136059_j73589969650042_2_alg».proof.Proof.Gen.Kernel.Launch
import proofs.«136059_j73589969650042_2_alg».proof.Proof.Gen.Kernel.Points
import proofs.«136059_j73589969650042_2_alg».proof.Proof.Gen.Kernel.Frame
import proofs.«136059_j73589969650042_2_alg».proof.Proof.Gen.KernelIdeal
import proofs.«136059_j73589969650042_2_alg».proof.Proof.Gen.KernelIdeal.Skeleton
import proofs.«136059_j73589969650042_2_alg».proof.Proof.Gen.KernelIdeal.Launch
import proofs.«136059_j73589969650042_2_alg».proof.Proof.Gen.KernelIdeal.Points
import proofs.«136059_j73589969650042_2_alg».proof.Proof.Gen.KernelIdeal.Frame
import proofs.«136059_j73589969650042_2_alg».proof.Proof.Gen.ReferenceIdeal
import proofs.«136059_j73589969650042_2_alg».proof.Proof.Gen.Pre_finite_inputs
import proofs.«136059_j73589969650042_2_alg».proof.Proof.Gen.ReferenceIdeal.Run
import proofs.«136059_j73589969650042_2_alg».proof.Proof.Gen.ReferenceIdeal.Read
import proofs.«136059_j73589969650042_2_alg».proof.Proof.KernelValue
import proofs.«136059_j73589969650042_2_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The four rewrites of the idealization: a [64, 1024] matrix of weights cast to bf16 and back is itself on the
    extended reals, and the rounding through bf16 on words. -/
theorem preserves : Cert.preserves_Kernel_KernelIdeal :=
  ⟨IdealRules.truncf_extf.statement _ _ _, IdealRules.truncf_extf.statement _ _ _,
    IdealRules.truncf_extf.statement _ _ _, IdealRules.truncf_extf.statement _ _ _⟩

/-- From memories that agree on the arguments both programs end with the result at the reshape of
    `SoftAssign.pooledAll` of the reshaped input, the score matrix and the centres. -/
theorem algebraic : Cert.algebraic_KernelIdeal_ReferenceIdeal := by
  intro m ρ m' ρ' _ hagree
  refine ⟨fun c => Cert.KernelIdeal.Pooled.result m c, Cert.KernelIdeal.Pooled.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.Pooled.result_eq, (hagree c).1, (hagree c).2.1,
    (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
